-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S32x32 : Shape := ⟨2, ![32, 32]⟩
abbrev S32 : Shape := ⟨1, ![32]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S65536x32 .f32) (main_arg1 : FVec F S32x32 .f32) (main_arg2 : FVec F S32 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S65536x32 : Shape := ⟨2, ![65536, 32]⟩
abbrev S32x32 : Shape := ⟨2, ![32, 32]⟩
abbrev S32 : Shape := ⟨1, ![32]⟩
abbrev S32x65536 : Shape := ⟨2, ![32, 65536]⟩
abbrev S32x32768 : Shape := ⟨2, ![32, 32768]⟩
abbrev S32x1 : Shape := ⟨2, ![32, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x32, .f32⟩
  | .hbm, ⟨1, _⟩ => ⟨S32x32, .f32⟩
  | .hbm, ⟨2, _⟩ => ⟨S32, .f32⟩
  | .hbm, ⟨3, _⟩ => ⟨S32x65536, .f32⟩
  | .hbm, ⟨4, _⟩ => ⟨S32x65536, .f32⟩
  | .hbm, ⟨5, _⟩ => ⟨S65536x32, .f32⟩
  | .local _ .vmem, ⟨0, _⟩ => ⟨S32x32768, .f32⟩
  | .local _ .vmem, ⟨1, _⟩ => ⟨S32x32768, .f32⟩
  | .local _ .vmem, ⟨2, _⟩ => ⟨S32x32, .f32⟩
  | .local _ .vmem, ⟨3, _⟩ => ⟨S32, .f32⟩
  | .local _ .vmem, ⟨4, _⟩ => ⟨S32x32768, .f32⟩
  | .local _ .vmem, ⟨5, _⟩ => ⟨S32x32768, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S65536x32_S32x65536_1_0 : S65536x32.Transposes [1, 0] S32x65536
  inb_S32x32_S32x32_0_0 : ∀ a, (![0, 0] : Fin 2 → Nat) a + S32x32.size a ≤ S32x32.size a
  h_S32x32 : 0 < S32x32.numel
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  inb_S32_S32_0 : ∀ a, (![0] : Fin 1 → Nat) a + S32.size a ≤ S32.size a
  h_S32 : 0 < S32.numel
  shapeCasts_S32_S32x1 : S32.ShapeCasts S32x1
  broadcasts_S32x1_S32x32768 : S32x1.Broadcasts S32x32768
  transposes_S32x65536_S65536x32_1_0 : S32x65536.Transposes [1, 0] S65536x32
  dot_S32x32_S32x32768_S32x32768_0_0_1_1_n_n_wf : DotDims.WF S32x32 S32x32768 S32x32768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S32x65536.size a
  hwx0_0 : ∀ i : grid0.Coords, EltTy.bits .f32 = 32 ∨ (Rect.block (s := S32x65536) S32x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32768.size a ≤ S32x65536.size a
  hwx0_3 : ∀ i : grid0.Coords, EltTy.bits .f32 = 32 ∨ (Rect.block (s := S32x65536) S32x32768.size (cc0_transform_3 i) (hinb0_3 i)).WholeWords (EltTy.packing .f32)

variable [Facts₀]

def dot_S32x32_S32x32768_S32x32768_0_0_1_1_n_n : DotDims S32x32 S32x32768 S32x32768 where
  lhsContracting := [0]
  rhsContracting := [0]
  lhsNonContracting := [1]
  rhsNonContracting := [1]
  lhsBatch := []
  rhsBatch := []
  wf := dot_S32x32_S32x32768_S32x32768_0_0_1_1_n_n_wf

abbrev win0_0 : Pipeline.Window sig grid0 :=
  Pipeline.Window.ofSpec (Memref.whole main_v0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x32 : Shape := ⟨2, ![65536, 32]⟩
abbrev S32x32 : Shape := ⟨2, ![32, 32]⟩
abbrev S32 : Shape := ⟨1, ![32]⟩
abbrev S1x32 : Shape := ⟨2, ![1, 32]⟩

abbrev nBuf : Space → Nat
  | .hbm => 7
  | .vmem => 0
  | .smem => 0
  | _ => 0

abbrev bufTy : (tb : Table) → Fin (tcTables nBuf tb) → BufTy
  | .hbm, ⟨0, _⟩ => ⟨S65536x32, .f32⟩
  | .hbm, ⟨1, _⟩ => ⟨S32x32, .f32⟩
  | .hbm, ⟨2, _⟩ => ⟨S32, .f32⟩
  | .hbm, ⟨3, _⟩ => ⟨S65536x32, .f32⟩
  | .hbm, ⟨4, _⟩ => ⟨S1x32, .f32⟩
  | .hbm, ⟨5, _⟩ => ⟨S65536x32, .f32⟩
  | .hbm, ⟨6, _⟩ => ⟨S65536x32, .f32⟩
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  dot_S65536x32_S32x32_S65536x32_1_0_0_1_n_n_wf : DotDims.WF S65536x32 S32x32 S65536x32 [1] [0] [0] [1] [] []

variable [Facts₀]

def dot_S65536x32_S32x32_S65536x32_1_0_0_1_n_n : DotDims S65536x32 S32x32 S65536x32 where
  lhsContracting := [1]
  rhsContracting := [0]
  lhsNonContracting := [0]
  rhsNonContracting := [1]
  lhsBatch := []
  rhsBatch := []
  wf := dot_S65536x32_S32x32_S65536x32_1_0_0_1_n_n_wf

class Facts : Prop extends Facts₀ where

variable [Facts]
-- ==== Proof.Spec.lean ====
/-
  The specification: a dense layer with bias. For `x : [65536, 32]`, `W : [32, 32]` and `b : [32]` the result is
  `y[r, j] = (∑ k, x[r, k] · W[k, j]) + b[j]` on the extended reals.

  The same result is also computed column-major: `yT[j, r] = (∑ k, W[k, j] · xT[k, r]) + b[j]` with `xT` the
  transpose of `x`, followed by a transpose back. The two agree entry by entry: the only difference is the order of
  the two factors of each product, and multiplication of extended reals is commutative, so no finiteness is needed.
-/
import Idealize.ShloMosaic.PureOps.Ideal
import Idealize.ShloMosaic.Lib.ValueIdx
import Idealize.ShloMosaic.Lib.ValueLayout

noncomputable section

namespace Cert.Dense

open Idealize.ShloMosaic Idealize.ShloMosaic.ValueIdx

/-- The rows-by-features shape of `x` and of the result. -/
abbrev Rows : Shape := ⟨2, ![65536, 32]⟩
/-- The features-by-rows shape of the transposed arrays. -/
abbrev Cols : Shape := ⟨2, ![32, 65536]⟩
/-- The weight's shape. -/
abbrev Sq : Shape := ⟨2, ![32, 32]⟩
/-- The bias's shape. -/
abbrev Bias : Shape := ⟨1, ![32]⟩

/-- The dense layer: entry `(r, j)` is the inner product of row `r` of `x` with column `j` of `W`, plus `b[j]`. -/
def dense (x : FVec Ideal Rows .f32) (W : FVec Ideal Sq .f32) (b : FVec Ideal Bias .f32) : FVec Ideal Rows .f32 :=
  fun i => (∑ k : Fin 32, x (ix2 (i 0) k) * W (ix2 k (i 1))) + b (ix1 (i 1))

/-- The same layer on the transposed input `xT : [32, 65536]`, producing the transposed result: entry `(j, r)` is
    the inner product of column `j` of `W` with column `r` of `xT`, plus `b[j]`. -/
def denseT (xT : FVec Ideal Cols .f32) (W : FVec Ideal Sq .f32) (b : FVec Ideal Bias .f32) : FVec Ideal Cols .f32 :=
  fun i => (∑ k : Fin 32, W (ix2 k (i 0)) * xT (ix2 k (i 1))) + b (ix1 (i 0))

/-- Transposing in, applying the column-major layer and transposing back is the dense layer: at `(r, j)` both are
    `(∑ k, ·) + b[j]`, the summands `W[k, j] · x[r, k]` and `x[r, k] · W[k, j]` equal by commutativity. -/
theorem transpose_denseT (x : FVec Ideal Rows .f32) (W : FVec Ideal Sq .f32) (b : FVec Ideal Bias .f32)
    (h : Rows.Transposes [1, 0] Cols) (h' : Cols.Transposes [1, 0] Rows) :
    transpose Rows [1, 0] (denseT (transpose Cols [1, 0] x h) W b) h' = dense x W b := by
  funext i
  obtain ⟨r, j, rfl⟩ : ∃ (r : Fin 65536) (j : Fin 32), i = ix2 r j := ⟨i 0, i 1, eq_ix2 i⟩
  rw [transpose_ix2_apply]
  unfold denseT dense
  refine congrArg (· + b (ix1 j)) (Finset.sum_congr rfl fun k _ => ?_)
  show W (ix2 k j) * transpose Cols [1, 0] x h (ix2 k r) = x (ix2 r k) * W (ix2 k j)
  rw [transpose_ix2_apply, mul_comm]

end Cert.Dense

end
-- ==== Proof.RefValue.lean ====
/-
  The reference computes the dense layer. Its four host operations are a matrix product contracting the feature axis
  of `x` with the first axis of `W`, the bias placed along the feature axis of a one-row array, that row repeated
  over all rows, and an entrywise sum. Read at an entry `(r, j)` this is `(∑ k, x[r, k] · W[k, j]) + b[j]`.
-/
import proofs.«126896_g32521492365339_cont_8to1_b_661_18_alg».proof.Proof.Gen.ReferenceIdeal.Read
import proofs.«126896_g32521492365339_cont_8to1_b_661_18_alg».proof.Proof.Spec

noncomputable section

namespace Cert.ReferenceIdeal.RefValue

open Cert.ReferenceIdeal Cert.ReferenceIdeal.Read Cert.Dense
open Idealize.ShloMosaic Idealize.ShloMosaic.ValueIdx

/-- The left operand of the product at `(r, j)` and contraction position `k` is read at `(r, k)`. -/
theorem lidx_eq (i : S65536x32.Idx) (k : Fin 32) : lidx_main_v0 i k = ix2 (i 0) k :=
  funext fun a => Fin.ext (by match a with | ⟨0, _⟩ => rfl | ⟨1, _⟩ => rfl)

/-- The right operand is read at `(k, j)`. -/
theorem ridx_eq (i : S65536x32.Idx) (k : Fin 32) : ridx_main_v0 i k = ix2 k (i 1) :=
  funext fun a => Fin.ext (by match a with | ⟨0, _⟩ => rfl | ⟨1, _⟩ => rfl)

/-- Through the two broadcasts the bias is read at the feature coordinate `j`. -/
theorem bidx_eq (i : S65536x32.Idx) : idx_main_v1 (idx_main_v2 i) = ix1 (i 1) :=
  funext fun a => Fin.ext (by match a with | ⟨0, _⟩ => rfl)

/-- The reference's result, as a function of its three arguments, is the dense layer. -/
theorem result_eq (x : FVec Ideal S65536x32 .f32) (W : FVec Ideal S32x32 .f32) (b : FVec Ideal S32 .f32) :
    val_main_v3 (F := Ideal) x W b = dense x W b := by
  funext i
  rw [val_main_v3_apply, val_main_v0_apply, val_main_v2_apply, val_main_v1_apply]
  simp only [lidx_eq, ridx_eq, bidx_eq]
  rfl

end Cert.ReferenceIdeal.RefValue

end
-- ==== Proof.LibColumn.lean ====
/-
  A vector laid out as a column, read at an entry. A length-`a` vector cast to an `[a, 1]` column holds the vector's
  entry `i` at `(i, 0)`; an `[a, 1]` column broadcast over `b` columns holds, at `(i, c)`, the column's entry
  at row `i`, whatever `c` is. Both are the library's read-at-an-index lemmas for a shape cast and a broadcast with
  the coordinate arithmetic discharged for indices written by coordinates.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's row `i`. -/
theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Payload.lean ====
/-
  What the kernel body stores, read at an entry. The body loads the weight `W : [32, 32]`, a block
  `X : [32, 32768]` of the transposed input and the bias `B : [32]`, multiplies `W` and `X` contracting the first
  axis of each into a zero accumulator, and adds the bias laid out as a column and repeated along the block's 32768
  columns. At `(p, q)` the stored value is `(∑ k, W[k, p] · X[k, q]) + B[p]`.
-/
import proofs.«126896_g32521492365339_cont_8to1_b_661_18_alg».proof.Proof.Gen.KernelIdeal.Skeleton
import proofs.«126896_g32521492365339_cont_8to1_b_661_18_alg».proof.Proof.LibColumn
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.LibColumn
open Idealize.ShloMosaic Idealize.ShloMosaic.ValueIdx

/-! ## The product's operand indices, coordinate by coordinate -/

/-- The weight is read, on its contracted first axis, at the contraction position. -/
theorem lhs_0 (j : S32x32768.Idx) (q : dot_S32x32_S32x32768_S32x32768_0_0_1_1_n_n.contr.Idx) :
    (dot_S32x32_S32x32768_S32x32768_0_0_1_1_n_n.lhsIdx j q 0).val = (q ⟨0, by decide⟩).val :=
  dot_S32x32_S32x32768_S32x32768_0_0_1_1_n_n.lhsIdx_val_of_single rfl j q

/-- and, on its second axis, at the result's row. -/
theorem lhs_1 (j : S32x32768.Idx) (q : dot_S32x32_S32x32768_S32x32768_0_0_1_1_n_n.contr.Idx) :
    (dot_S32x32_S32x32768_S32x32768_0_0_1_1_n_n.lhsIdx j q 1).val = (j 0).val := by
  unfold DotDims.lhsIdx
  rw [dif_neg (show ¬(1 : Fin S32x32.rank) ∈ dot_S32x32_S32x32768_S32x32768_0_0_1_1_n_n.lhsBatch by decide), dif_pos (show (1 : Fin S32x32.rank) ∈ dot_S32x32_S32x32768_S32x32768_0_0_1_1_n_n.lhsNonContracting by decide)]
  rfl

/-- The block is read, on its contracted first axis, at the contraction position. -/
theorem rhs_0 (j : S32x32768.Idx) (q : dot_S32x32_S32x32768_S32x32768_0_0_1_1_n_n.contr.Idx) :
    (dot_S32x32_S32x32768_S32x32768_0_0_1_1_n_n.rhsIdx j q 0).val = (q ⟨0, by decide⟩).val :=
  dot_S32x32_S32x32768_S32x32768_0_0_1_1_n_n.rhsIdx_val_of_single rfl j q

/-- and, on its second axis, at the result's column. -/
theorem rhs_1 (j : S32x32768.Idx) (q : dot_S32x32_S32x32768_S32x32768_0_0_1_1_n_n.contr.Idx) :
    (dot_S32x32_S32x32768_S32x32768_0_0_1_1_n_n.rhsIdx j q 1).val = (j 1).val := by
  unfold DotDims.rhsIdx
  rw [dif_neg (show ¬(1 : Fin S32x32768.rank) ∈ dot_S32x32_S32x32768_S32x32768_0_0_1_1_n_n.rhsBatch by decide), dif_pos (show (1 : Fin S32x32768.rank) ∈ dot_S32x32_S32x32768_S32x32768_0_0_1_1_n_n.rhsNonContracting by decide)]
  rfl

/-! ## The product at an entry -/

/-- Into the zero accumulator the product at `(p, q)` is `∑ k, W[k, p] · X[k, q]`. -/
theorem product_apply (W : FVec Ideal S32x32 .f32) (X : FVec Ideal S32x32768 .f32) (p : Fin 32) (q : Fin 32768) :
    matmul (F := Ideal) dot_S32x32_S32x32768_S32x32768_0_0_1_1_n_n none W X (constant (F := Ideal) S32x32768 .f32 0x00000000#32) (ix2 p q)
      = ∑ k : Fin 32, W (ix2 k p) * X (ix2 k q) := by
  simp only [matmul]
  rw [Ideal.matmul_constant_zero_apply, ← Equiv.sum_comp (contrEquiv1 dot_S32x32_S32x32768_S32x32768_0_0_1_1_n_n 32 rfl rfl).symm]
  refine Finset.sum_congr rfl fun k _ => ?_
  have hk := contrEquiv1_symm_val dot_S32x32_S32x32768_S32x32768_0_0_1_1_n_n 32 rfl rfl k
  have el : dot_S32x32_S32x32768_S32x32768_0_0_1_1_n_n.lhsIdx (ix2 p q) ((contrEquiv1 dot_S32x32_S32x32768_S32x32768_0_0_1_1_n_n 32 rfl rfl).symm k) = ix2 k p := funext fun a => Fin.ext (by
    match a with
    | ⟨0, _⟩ => exact (lhs_0 _ _).trans hk
    | ⟨1, _⟩ => exact lhs_1 _ _)
  have er : dot_S32x32_S32x32768_S32x32768_0_0_1_1_n_n.rhsIdx (ix2 p q) ((contrEquiv1 dot_S32x32_S32x32768_S32x32768_0_0_1_1_n_n 32 rfl rfl).symm k) = ix2 k q := funext fun a => Fin.ext (by
    match a with
    | ⟨0, _⟩ => exact (rhs_0 _ _).trans hk
    | ⟨1, _⟩ => exact rhs_1 _ _)
  rw [el, er]

/-! ## The stored value at an entry -/

/-- The body's one store at `(p, q)`: the product there plus the bias's entry `p`. -/
theorem pay_apply (W : Vec Ideal S32x32 .f32) (X : Vec Ideal S32x32768 .f32) (B : Vec Ideal S32 .f32)
    (p : Fin 32) (q : Fin 32768) :
    k0_pay1 (F := Ideal) W X B (ix2 p q) = (∑ k : Fin 32, W (ix2 k p) * X (ix2 k q)) + B (ix1 p) := by
  unfold k0_pay1
  show addf (matmul (F := Ideal) dot_S32x32_S32x32768_S32x32768_0_0_1_1_n_n none W
        (shapeCast S32x32768 X shapeCasts_S32x32768_S32x32768) (constant (F := Ideal) S32x32768 .f32 0x00000000#32))
      (broadcastTo S32x32768 (shapeCast S32x1 B shapeCasts_S32_S32x1) broadcasts_S32x1_S32x32768) (ix2 p q) = _
  rw [addf_apply, shapeCast_self, product_apply, broadcastTo_a1_ab_apply, shapeCast_a_a1_apply]

end Cert.KernelIdeal.Payload

end
-- ==== Proof.KernelValue.lean ====
/-
  The kernel's result as a function of its arguments.

  The program transposes `x : [65536, 32]` to `xT : [32, 65536]`, runs the body over two grid points, each on one
  block of 32768 columns of `xT` together with the whole weight and the whole bias, writing the same block of columns
  of an array `yT : [32, 65536]`, and transposes `yT` back. Block `t` covers columns `32768·t … 32768·t + 32767`
  and all 32 rows; the two blocks tile `yT`. At column `q` of its block the body stores
  `(∑ k, W[k, p] · xT[k, 32768·t + q]) + b[p]`, which is entry `(p, 32768·t + q)` of the column-major dense layer
  `denseT xT W b`. So `yT = denseT xT W b`, and the program's result is its transpose, the dense layer of `x`.
-/
import proofs.«126896_g32521492365339_cont_8to1_b_661_18_alg».proof.Proof.Gen.KernelIdeal.Frame
import proofs.«126896_g32521492365339_cont_8to1_b_661_18_alg».proof.Proof.Payload
import proofs.«126896_g32521492365339_cont_8to1_b_661_18_alg».proof.Proof.Spec
import Idealize.ShloMosaic.Lib.Pipeline.Value
import Idealize.ShloMosaic.Lib.StableHlo.Run

noncomputable section

namespace Cert.KernelIdeal.KernelValue

open Cert.KernelIdeal Cert.KernelIdeal.Gen Cert.KernelIdeal.Payload Cert.Dense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The transposed input, as the region finds it -/

/-- The one host operation before the region writes the transpose of `x`. -/
theorem entry_xT (c : Dev nD) :
    (V m c main_v0 : S32x65536.Idx → EReal)
      = transpose S32x65536 [1, 0] (m ((c : Thread nD τ).loc main_arg0)) transposes_S65536x32_S32x65536_1_0 := by
  show StableHlo.after hostOps0 (fun b => m (c, b)) (Proc.devRef .tc main_v0) = _
  after_results

/-! ## One stored entry -/

/-- The stored value at block entry `y` is the column-major dense layer at array entry `i`, once the three loaded
    blocks are known to read the arrays at the rows and columns that `i` names. -/
theorem stored_entry (xT : FVec Ideal Cols .f32) (W : FVec Ideal Sq .f32) (b : FVec Ideal Bias .f32)
    (X : Vec Ideal S32x32768 .f32) (W' : Vec Ideal S32x32 .f32) (B : Vec Ideal S32 .f32)
    (y : S32x32768.Idx) (i : S32x65536.Idx)
    (hW : ∀ k : Fin 32, W' (ix2 k (y 0)) = W (ix2 k (i 0)))
    (hX : ∀ k : Fin 32, X (ix2 k (y 1)) = xT (ix2 k (i 1)))
    (hB : B (ix1 (y 0)) = b (ix1 (i 0))) :
    k0_pay1 (F := Ideal) W' X B y = denseT xT W b i := by
  obtain ⟨p, q, rfl⟩ : ∃ (p : Fin 32) (q : Fin 32768), y = ix2 p q := ⟨y 0, y 1, eq_ix2 y⟩
  have hW' : ∀ k : Fin 32, W' (ix2 k p) = W (ix2 k (i 0)) := hW
  have hX' : ∀ k : Fin 32, X (ix2 k q) = xT (ix2 k (i 1)) := hX
  have hB' : B (ix1 p) = b (ix1 (i 0)) := hB
  rw [pay_apply, hB']
  unfold denseT
  exact congrArg (· + b (ix1 (i 0))) (Finset.sum_congr rfl fun k _ => by rw [hW' k, hX' k])

/-! ## What a grid point writes back -/

theorem zeros2 : (![0, 0] : Fin 2 → Nat) = fun _ => 0 := funext fun a => by fin_cases a <;> rfl
theorem zeros1 : (![0] : Fin 1 → Nat) = fun _ => 0 := funext fun a => by fin_cases a <;> rfl

/-- The block indices over the grid: the weight and the bias are always at block zero, the input's and the output's
    blocks are at row block zero and at the same column block, which is at most one. -/
theorem block_indices : ∀ t : Fin cfg0.N, win0_0.index t (0 : Fin 2) = 0
    ∧ win0_0.index t (1 : Fin 2) = win0_3.index t (1 : Fin 2)
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) ≤ 1 :=
  (by decide +kernel : ∀ t : Fin grid0.N, _)

/-- Each of the two column blocks is some point's. -/
theorem block_onto : ∀ q : Fin 2, ∃ t : Fin cfg0.N, win0_3.index t = ![0, q.val] :=
  (by decide +kernel : ∀ q : Fin 2, ∃ t : Fin grid0.N, win0_3.index t = ![0, q.val])

/-- The body's stored block at point `t`, entry by entry, is block `t` of the column-major dense layer. -/
theorem stored_block (c : Dev nD) (t : Fin cfg0.N) (y : S32x32768.Idx) :
    k0_pay1 (F := Ideal) (iblk m c 1 t) (iblk m c 0 t) (iblk m c 2 t) y
      = denseT (V m c main_v0) (V m c main_arg1) (V m c main_arg2) (((cfg0.win 3).blk t).view.emb y) := by
  obtain ⟨e0, e1, e2, e3, e4, e5, e6⟩ := block_indices t
  obtain ⟨p, q, rfl⟩ : ∃ (p : Fin 32) (q : Fin 32768), y = ix2 p q := ⟨y 0, y 1, eq_ix2 y⟩
  refine stored_entry (V m c main_v0) (V m c main_arg1) (V m c main_arg2) (iblk m c 0 t) (iblk m c 1 t) (iblk m c 2 t)
    (ix2 p q) (((cfg0.win 3).blk t).view.emb (ix2 p q)) ?_ ?_ ?_
  · intro k
    show V m c main_arg1 (((cfg0.win 1).blk t).view.emb (ix2 k p)) = V m c main_arg1 (ix2 k ((((cfg0.win 3).blk t).view.emb (ix2 p q)) 0))
    refine congrArg (V m c main_arg1) (funext fun a => Fin.ext ?_)
    match a with
    | ⟨0, _⟩ => show win0_1.index t (0 : Fin 2) * 32 + 1 * k.val = k.val; omega
    | ⟨1, _⟩ => show win0_1.index t (1 : Fin 2) * 32 + 1 * p.val = win0_3.index t (0 : Fin 2) * 32 + 1 * p.val; omega
  · intro k
    show V m c main_v0 (((cfg0.win 0).blk t).view.emb (ix2 k q)) = V m c main_v0 (ix2 k ((((cfg0.win 3).blk t).view.emb (ix2 p q)) 1))
    refine congrArg (V m c main_v0) (funext fun a => Fin.ext ?_)
    match a with
    | ⟨0, _⟩ => show win0_0.index t (0 : Fin 2) * 32 + 1 * k.val = k.val; omega
    | ⟨1, _⟩ => show win0_0.index t (1 : Fin 2) * 32768 + 1 * q.val = win0_3.index t (1 : Fin 2) * 32768 + 1 * q.val; omega
  · show V m c main_arg2 (((cfg0.win 2).blk t).view.emb (ix1 p)) = V m c main_arg2 (ix1 ((((cfg0.win 3).blk t).view.emb (ix2 p q)) 0))
    refine congrArg (V m c main_arg2) (funext fun a => Fin.ext ?_)
    match a with
    | ⟨0, _⟩ => show win0_2.index t (0 : Fin 1) * 32 + 1 * p.val = win0_3.index t (0 : Fin 2) * 32 + 1 * p.val; omega

/-- What point `t` writes back is block `t` of the column-major dense layer of the arrays as the region finds them. -/
theorem flushed_eq (c : Dev nD) (t : Fin cfg0.N) :
    (dats m 0 c).flushed 3 t
      = ((cfg0.win 3).blk t).view.read (Elt Ideal) (denseT (V m c main_v0) (V m c main_arg1) (V m c main_arg2)) := by
  show (cfg0.win 3).cut (grid0.coords t) ((dats m 0 c).after 3 t) = _
  rw [after0_3]
  unfold out0_3
  rw [View.canon_unit_zero zeros2]
  simp only [View.ld_unit_zero (S := S32x32768) zeros2, View.ld_unit_zero (S := S32x32) zeros2, View.ld_unit_zero (S := S32) zeros1]
  funext j
  exact stored_block m c t j

/-! ## The two blocks tile the array -/

/-- An entry is in point `t`'s block iff each coordinate is in the block's range on its axis. -/
theorem mem_block (t : Fin cfg0.N) (i : S32x65536.Idx) :
    i ∈ ((cfg0.win 3).blk t).view.set ↔ ∀ a : Fin 2, win0_3.index t a * S32x32768.size a ≤ (i a).val ∧ (i a).val < win0_3.index t a * S32x32768.size a + S32x32768.size a := by
  show i ∈ ((View.whole main_v1).slice (win0_3.rect t)).set ↔ _
  rw [View.set_slice_whole, Rect.mem_set_unit]
  exact Iff.rfl

/-- Column `n` lies in column block `n / 32768`, and every row lies in the one row block. -/
theorem covered (i : S32x65536.Idx) :
    ∃ t : Fin cfg0.N, (cfg0.win 3).flush t = true ∧ i ∈ ((cfg0.win 3).blk t).view.set := by
  have hi0 : (i 0).val < 32 := (i 0).isLt
  have hi1 : (i 1).val < 65536 := (i 1).isLt
  obtain ⟨t, ht⟩ := block_onto ⟨(i 1).val / 32768, by omega⟩
  have q0 : win0_3.index t (0 : Fin 2) = 0 := congrFun ht 0
  have q1 : win0_3.index t (1 : Fin 2) = (i 1).val / 32768 := congrFun ht 1
  refine ⟨t, flush0_3 t, ?_⟩
  rw [mem_block]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 32768 ≤ (i 1).val ∧ (i 1).val < win0_3.index t (1 : Fin 2) * 32768 + 32768; omega

/-- The region's output array after the run is the column-major dense layer. -/
theorem region_array (c : Dev nD) :
    (dats m 0 c).arrAt 3 cfg0.N = denseT (V m c main_v0) (V m c main_arg1) (V m c main_arg2) :=
  (dats m 0 c).arrAt_eq_of_cover 3 _ (fun t _ => flushed_eq m c t) covered

end Cert.KernelIdeal.KernelValue

end
-- ==== Proof.KernelRun.lean ====
/-
  The kernel's run, with its result named. After the region the one remaining host operation transposes the region's
  array `yT = denseT xT W b` back to `[65536, 32]`; with `xT` the transpose of `x` this is the dense layer of `x`,
  `W` and `b`. The three argument arrays are never written: `x` is staged by no window and written by no host
  operation, and `W` and `b` are input windows, which are fetched and never written back.
-/
import proofs.«126896_g32521492365339_cont_8to1_b_661_18_alg».proof.Proof.KernelValue

noncomputable section

namespace Cert.KernelIdeal.KernelRun

open Cert.KernelIdeal Cert.KernelIdeal.Gen Cert.KernelIdeal.KernelValue Cert.Dense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The program's result buffer after the host operation that follows the region: the dense layer of the arguments. -/
theorem result_eq (c : Dev nD) :
    Pipeline.afterTail₀ cfgs (dats m) 0 (V0 m) [hostOps1] c main_v2
      = dense (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  rw [(Pipeline.withArrays_arr spec0 launch0.win.arr_inj c _ _ 3).trans (region_array m c)]
  rw [entry_xT, V_main_arg1, V_main_arg2]
  exact transpose_denseT _ _ _ _ _

/-- Every weakly fair execution of the program terminates with the result at the dense layer of the arguments and the
    arguments unchanged. -/
theorem run : θ_run defs (onTc (τ := τ) (main (F := Ideal))) ⟨m, fun _ => 0, ρ⟩ fun r => ∀ c : Dev nD,
      r.2.mem ((c : Thread nD τ).loc main_v2)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelRun

end
-- ==== Proof.lean ====
/-
  A dense layer with bias, computed column-major by the kernel and row-major by the reference.

  The reference computes `y[r, j] = (∑ k, x[r, k] · W[k, j]) + b[j]` for `x : [65536, 32]`, `W : [32, 32]`,
  `b : [32]`: one matrix product contracting the feature axis, and the bias repeated over the rows.

  The kernel transposes `x`, computes `yT[j, n] = (∑ k, W[k, j] · xT[k, n]) + b[j]` in two blocks of 32768 columns
  (each block a product into a zero accumulator plus the bias laid out as a column and repeated along the block), and
  transposes `yT` back. The two blocks tile `yT`, so `yT` is that function everywhere, and its transpose at `(r, j)`
  is `(∑ k, W[k, j] · x[r, k]) + b[j]`.

  On the extended reals the two results agree entry by entry: the sums range over the same 32 positions, each
  summand differs only in the order of its two factors, and multiplication is commutative. No distributivity or
  cancellation is involved, so the finiteness of the inputs is never used. The idealization rewrote no operation of
  the kernel, so the kernel is its own idealization.

  Modules: Spec (the two forms of the layer and the law between them), RefValue (the reference's four operations
  read at an entry), LibColumn (a vector as a column, read at an entry), Payload (the body's stored value at an
  entry), KernelValue (what each grid point writes back, the tiling, the region's array), KernelRun (the transpose
  after the region, and the run).
-/
import proofs.«126896_g32521492365339_cont_8to1_b_661_18_alg».proof.Defs
import proofs.«126896_g32521492365339_cont_8to1_b_661_18_alg».proof.Proof.Gen.Kernel
import proofs.«126896_g32521492365339_cont_8to1_b_661_18_alg».proof.Proof.Gen.Kernel.Frame
import proofs.«126896_g32521492365339_cont_8to1_b_661_18_alg».proof.Proof.Gen.KernelIdeal
import proofs.«126896_g32521492365339_cont_8to1_b_661_18_alg».proof.Proof.Gen.KernelIdeal.Frame
import proofs.«126896_g32521492365339_cont_8to1_b_661_18_alg».proof.Proof.Gen.ReferenceIdeal
import proofs.«126896_g32521492365339_cont_8to1_b_661_18_alg».proof.Proof.Gen.Pre_finite_inputs
import proofs.«126896_g32521492365339_cont_8to1_b_661_18_alg».proof.Proof.Gen.ReferenceIdeal.Run
import proofs.«126896_g32521492365339_cont_8to1_b_661_18_alg».proof.Proof.Gen.ReferenceIdeal.Read
import proofs.«126896_g32521492365339_cont_8to1_b_661_18_alg».proof.Proof.RefValue
import proofs.«126896_g32521492365339_cont_8to1_b_661_18_alg».proof.Proof.KernelRun
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories agreeing on `x`, `W` and `b`, both programs end with the dense layer of those arguments in their
    result buffers: the kernel by its run, the reference by its run read at an entry. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
